-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64x256 : Shape := ⟨2, ![64, 256]⟩
abbrev S64 : Shape := ⟨1, ![64]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S64x2048x256 .f32) (main_arg1 : FVec F S64x256 .f32) (main_arg2 : FVec F S64 .f32) (main_arg3 : FVec F S64x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S64x2048x256 : Shape := ⟨3, ![64, 2048, 256]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S64x64x256 : Shape := ⟨3, ![64, 64, 256]⟩
abbrev S2x2048x256 : Shape := ⟨3, ![2, 2048, 256]⟩
abbrev S2x64x256 : Shape := ⟨3, ![2, 64, 256]⟩
abbrev S2x2048 : Shape := ⟨2, ![2, 2048]⟩
abbrev S2x2048x1 : Shape := ⟨3, ![2, 2048, 1]⟩
abbrev S4096x256 : Shape := ⟨2, ![4096, 256]⟩
abbrev S4096x64 : Shape := ⟨2, ![4096, 64]⟩
abbrev S2x2048x64 : Shape := ⟨3, ![2, 2048, 64]⟩
abbrev S2x64 : Shape := ⟨2, ![2, 64]⟩
abbrev S2x64x1 : Shape := ⟨3, ![2, 64, 1]⟩
abbrev S1x64x256 : Shape := ⟨3, ![1, 64, 256]⟩
abbrev S2 : Shape := ⟨1, ![2]⟩
abbrev S2x1 : Shape := ⟨2, ![2, 1]⟩
abbrev S2x1x1 : Shape := ⟨3, ![2, 1, 1]⟩
abbrev S64x16384 : Shape := ⟨2, ![64, 16384]⟩

abbrev nBuf : Space → Nat
  | .hbm => 8
  | .vmem => 7
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S256x64, .f32⟩
  | .hbm, ⟨5, _⟩ => ⟨S1x64, .f32⟩
  | .hbm, ⟨6, _⟩ => ⟨S64x64x256, .f32⟩
  | .hbm, ⟨7, _⟩ => ⟨S64x16384, .f32⟩
  | .local _ .vmem, ⟨0, _⟩ => ⟨S2x2048x256, .f32⟩
  | .local _ .vmem, ⟨1, _⟩ => ⟨S2x2048x256, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S2x64x256, .f32⟩
  | .local _ .vmem, ⟨6, _⟩ => ⟨S2x64x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256_S256x64_1_0 : S64x256.Transposes [1, 0] S256x64
  shapeCasts_S64_S1x64 : S64.ShapeCasts S1x64
  inb_S2x2048x256_S2x2048x256_0_0_0 : ∀ a, (![0, 0, 0] : Fin 3 → Nat) a + S2x2048x256.size a ≤ S2x2048x256.size a
  h_S2x2048x256 : 0 < S2x2048x256.numel
  reduces_S2x2048x256_S2x2048 : S2x2048x256.Reduces [2] S2x2048
  shapeCasts_S2x2048_S2x2048x1 : S2x2048.ShapeCasts S2x2048x1
  broadcasts_S2x2048x1_S2x2048x256 : S2x2048x1.Broadcasts S2x2048x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S2x2048x256_S4096x256 : S2x2048x256.ShapeCasts S4096x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S2x2048x64 : S4096x64.ShapeCasts S2x2048x64
  reduces_S2x2048x64_S2x2048 : S2x2048x64.Reduces [2] S2x2048
  broadcasts_S2x2048x1_S2x2048x64 : S2x2048x1.Broadcasts S2x2048x64
  reduces_S2x2048x64_S2x64 : S2x2048x64.Reduces [1] S2x64
  inb_S64x256_S64x256_0_0 : ∀ a, (![0, 0] : Fin 2 → Nat) a + S64x256.size a ≤ S64x256.size a
  h_S64x256 : 0 < S64x256.numel
  shapeCasts_S2x64_S2x64x1 : S2x64.ShapeCasts S2x64x1
  shapeCasts_S64x256_S1x64x256 : S64x256.ShapeCasts S1x64x256
  broadcasts_S2x64x1_S2x64x256 : S2x64x1.Broadcasts S2x64x256
  broadcasts_S1x64x256_S2x64x256 : S1x64x256.Broadcasts S2x64x256
  reduces_S2x64x256_S2x64 : S2x64x256.Reduces [2] S2x64
  reduces_S2x64_S2 : S2x64.Reduces [1] S2
  shapeCasts_S2_S2x1 : S2.ShapeCasts S2x1
  shapeCasts_S2x1_S2x1x1 : S2x1.ShapeCasts S2x1x1
  broadcasts_S2x1x1_S2x64x256 : S2x1x1.Broadcasts S2x64x256
  inb_S2x64x256_S2x64x256_0_0_0 : ∀ a, (![0, 0, 0] : Fin 3 → Nat) a + S2x64x256.size a ≤ S2x64x256.size a
  h_S2x64x256 : 0 < S2x64x256.numel
  shapeCasts_S64x64x256_S64x16384 : S64x64x256.ShapeCasts S64x16384
  dot_S4096x256_S256x64_S4096x64_1_0_0_1_n_n_wf : DotDims.WF S4096x256 S256x64 S4096x64 [1] [0] [0] [1] [] []
  dot_S2x2048x64_S2x2048x256_S2x64x256_1_1_2_2_0_0_wf : DotDims.WF S2x2048x64 S2x2048x256 S2x64x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x256.size a ≤ S64x2048x256.size a
  hwx0_0 : ∀ i : grid0.Coords, EltTy.bits .f32 = 32 ∨ (Rect.block (s := S64x2048x256) S2x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x256.size a ≤ S64x64x256.size a
  hwx0_4 : ∀ i : grid0.Coords, EltTy.bits .f32 = 32 ∨ (Rect.block (s := S64x64x256) S2x64x256.size (cc0_transform_4 i) (hinb0_4 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S2x2048x64_S2x2048x256_S2x64x256_1_1_2_2_0_0 : DotDims S2x2048x64 S2x2048x256 S2x64x256 where
  lhsContracting := [1]
  rhsContracting := [1]
  lhsNonContracting := [2]
  rhsNonContracting := [2]
  lhsBatch := [0]
  rhsBatch := [0]
  wf := dot_S2x2048x64_S2x2048x256_S2x64x256_1_1_2_2_0_0_wf

abbrev win0_0 : Pipeline.Window sig grid0 :=
  Pipeline.Window.ofSpec (Memref.whole main_arg0) S2x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S64x256 : Shape := ⟨2, ![64, 256]⟩
abbrev S64 : Shape := ⟨1, ![64]⟩
abbrev S_ : Shape := ⟨0, ![]⟩
abbrev S64x2048 : Shape := ⟨2, ![64, 2048]⟩
abbrev S64x2048x1 : Shape := ⟨3, ![64, 2048, 1]⟩
abbrev S64x2048x64 : Shape := ⟨3, ![64, 2048, 64]⟩
abbrev S1x1x64 : Shape := ⟨3, ![1, 1, 64]⟩
abbrev S64x64x256 : Shape := ⟨3, ![64, 64, 256]⟩
abbrev S64x64 : Shape := ⟨2, ![64, 64]⟩
abbrev S64x64x1 : Shape := ⟨3, ![64, 64, 1]⟩
abbrev S1x64x256 : Shape := ⟨3, ![1, 64, 256]⟩
abbrev S64x16384 : Shape := ⟨2, ![64, 16384]⟩
abbrev S64x1 : Shape := ⟨2, ![64, 1]⟩

abbrev nBuf : Space → Nat
  | .hbm => 62
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S64x2048x256, .f32⟩
  | .hbm, ⟨5, _⟩ => ⟨S_, .f32⟩
  | .hbm, ⟨6, _⟩ => ⟨S64x2048, .f32⟩
  | .hbm, ⟨7, _⟩ => ⟨S64x2048x1, .f32⟩
  | .hbm, ⟨8, _⟩ => ⟨S64x2048x1, .f32⟩
  | .hbm, ⟨9, _⟩ => ⟨S_, .f32⟩
  | .hbm, ⟨10, _⟩ => ⟨S64x2048x1, .f32⟩
  | .hbm, ⟨11, _⟩ => ⟨S64x2048x1, .f32⟩
  | .hbm, ⟨12, _⟩ => ⟨S64x2048x256, .f32⟩
  | .hbm, ⟨13, _⟩ => ⟨S64x2048x256, .f32⟩
  | .hbm, ⟨14, _⟩ => ⟨S64x2048x64, .f32⟩
  | .hbm, ⟨15, _⟩ => ⟨S1x1x64, .f32⟩
  | .hbm, ⟨16, _⟩ => ⟨S64x2048x64, .f32⟩
  | .hbm, ⟨17, _⟩ => ⟨S64x2048x64, .f32⟩
  | .hbm, ⟨18, _⟩ => ⟨S_, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S64x2048x1, .f32⟩
  | .hbm, ⟨24, _⟩ => ⟨S64x2048x64, .f32⟩
  | .hbm, ⟨25, _⟩ => ⟨S64x2048x64, .f32⟩
  | .hbm, ⟨26, _⟩ => ⟨S64x2048x64, .f32⟩
  | .hbm, ⟨27, _⟩ => ⟨S_, .f32⟩
  | .hbm, ⟨28, _⟩ => ⟨S64x2048, .f32⟩
  | .hbm, ⟨29, _⟩ => ⟨S64x2048x1, .f32⟩
  | .hbm, ⟨30, _⟩ => ⟨S64x2048x64, .f32⟩
  | .hbm, ⟨31, _⟩ => ⟨S64x2048x64, .f32⟩
  | .hbm, ⟨32, _⟩ => ⟨S64x64x256, .f32⟩
  | .hbm, ⟨33, _⟩ => ⟨S_, .f32⟩
  | .hbm, ⟨34, _⟩ => ⟨S64x64, .f32⟩
  | .hbm, ⟨35, _⟩ => ⟨S64x64x1, .f32⟩
  | .hbm, ⟨36, _⟩ => ⟨S1x64x256, .f32⟩
  | .hbm, ⟨37, _⟩ => ⟨S64x64x256, .f32⟩
  | .hbm, ⟨38, _⟩ => ⟨S64x64x256, .f32⟩
  | .hbm, ⟨39, _⟩ => ⟨S64x64x256, .f32⟩
  | .hbm, ⟨40, _⟩ => ⟨S64x64x256, .f32⟩
  | .hbm, ⟨41, _⟩ => ⟨S64x64x256, .f32⟩
  | .hbm, ⟨42, _⟩ => ⟨S_, .f32⟩
  | .hbm, ⟨43, _⟩ => ⟨S64x64, .f32⟩
  | .hbm, ⟨44, _⟩ => ⟨S64x64x1, .f32⟩
  | .hbm, ⟨45, _⟩ => ⟨S64x64x1, .f32⟩
  | .hbm, ⟨46, _⟩ => ⟨S_, .f32⟩
  | .hbm, ⟨47, _⟩ => ⟨S64x64x1, .f32⟩
  | .hbm, ⟨48, _⟩ => ⟨S64x64x1, .f32⟩
  | .hbm, ⟨49, _⟩ => ⟨S64x64x256, .f32⟩
  | .hbm, ⟨50, _⟩ => ⟨S64x64x256, .f32⟩
  | .hbm, ⟨51, _⟩ => ⟨S64x16384, .f32⟩
  | .hbm, ⟨52, _⟩ => ⟨S64x16384, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x16384, .f32⟩
  | .hbm, ⟨61, _⟩ => ⟨S64x16384, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  reducesTo_S64x2048x256_S64x2048_d2 : S64x2048x256.ReducesTo [2] S64x2048
  h_S_ : 0 < S_.numel
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  bcast_S64x2048x1_S64x2048x256_0_1_2 : S64x2048x1.BroadcastsInDim S64x2048x256 (![0, 1, 2] : Fin 3 → Fin S64x2048x256.rank)
  bcast_S64_S1x1x64_2 : S64.BroadcastsInDim S1x1x64 (![2] : Fin 1 → Fin S1x1x64.rank)
  bcast_S1x1x64_S64x2048x64_0_1_2 : S1x1x64.BroadcastsInDim S64x2048x64 (![0, 1, 2] : Fin 3 → Fin S64x2048x64.rank)
  reducesTo_S64x2048x64_S64x2048_d2 : S64x2048x64.ReducesTo [2] S64x2048
  bcast_S_S64x2048 : S_.BroadcastsInDim S64x2048 (![] : Fin 0 → Fin S64x2048.rank)
  bcast_S64x2048x1_S64x2048x64_0_1_2 : S64x2048x1.BroadcastsInDim S64x2048x64 (![0, 1, 2] : Fin 3 → Fin S64x2048x64.rank)
  reducesTo_S64x2048x64_S64x64_d1 : S64x2048x64.ReducesTo [1] S64x64
  bcast_S64x64_S64x64x1_0_1 : S64x64.BroadcastsInDim S64x64x1 (![0, 1] : Fin 2 → Fin S64x64x1.rank)
  bcast_S64x256_S1x64x256_1_2 : S64x256.BroadcastsInDim S1x64x256 (![1, 2] : Fin 2 → Fin S1x64x256.rank)
  bcast_S64x64x1_S64x64x256_0_1_2 : S64x64x1.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  reducesTo_S64x64x256_S64x64_d2 : S64x64x256.ReducesTo [2] S64x64
  bcast_S_S64x64x1 : S_.BroadcastsInDim S64x64x1 (![] : Fin 0 → Fin S64x64x1.rank)
  shapeCasts_S64x64x256_S64x16384 : S64x64x256.ShapeCasts S64x16384
  reducesTo_S64x16384_S64_d1 : S64x16384.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x16384_0_1 : S64x1.BroadcastsInDim S64x16384 (![0, 1] : Fin 2 → Fin S64x16384.rank)
  dot_S64x2048x256_S64x256_S64x2048x64_2_1_01_0_n_n_wf : DotDims.WF S64x2048x256 S64x256 S64x2048x64 [2] [1] [0, 1] [0] [] []
  dot_S64x2048x64_S64x2048x256_S64x64x256_1_1_2_2_0_0_wf : DotDims.WF S64x2048x64 S64x2048x256 S64x64x256 [1] [1] [2] [2] [0] [0]

variable [Facts₀]

def dot_S64x2048x256_S64x256_S64x2048x64_2_1_01_0_n_n : DotDims S64x2048x256 S64x256 S64x2048x64 where
  lhsContracting := [2]
  rhsContracting := [1]
  lhsNonContracting := [0, 1]
  rhsNonContracting := [0]
  lhsBatch := []
  rhsBatch := []
  wf := dot_S64x2048x256_S64x256_S64x2048x64_2_1_01_0_n_n_wf
def dot_S64x2048x64_S64x2048x256_S64x64x256_1_1_2_2_0_0 : DotDims S64x2048x64 S64x2048x256 S64x64x256 where
  lhsContracting := [1]
  rhsContracting := [1]
  lhsNonContracting := [2]
  rhsNonContracting := [2]
  lhsBatch := [0]
  rhsBatch := [0]
  wf := dot_S64x2048x64_S64x2048x256_S64x64x256_1_1_2_2_0_0_wf

class Facts : Prop extends Facts₀ where

variable [Facts]
-- ==== Proof.Spec.lean ====
/-
  NetVLAD aggregation of one sample, as one function of its rows, written once over plain index types.

  For a sample `X` (2048 rows of 256 channels), cluster weights `W` and biases `B` (64 clusters) and cluster
  centres `Cn`:
    xn t c   = X t c / max (‖X t‖₂) ε                                   (each row scaled to unit length)
    logit t k = Σ_c xn t c · W k c + B k
    asg t k  = softmax over k of logit t ·                               (exp (logit − row max) / Σ exp)
    vlad k c = Σ_t asg t k · xn t c − (Σ_t asg t k) · Cn k c            (residuals to the centre, soft-assigned)
    vn k c   = vlad k c / max (‖vlad k‖₂) ε                             (each cluster row scaled to unit length)
    out k c  = vn k c / max (√(Σ_k Σ_c vn k c²)) ε                       (the whole 64·256 vector scaled)
  Every quotient is the extended reals' `Ideal.div`; the divisors are clamped below by `ε > 0`, so none is zero,
  and for a nonzero divisor `x · (1 / d) = x / d` holds for every extended real `x` (`mul_recip`): this is the one
  algebraic law between multiplying by a reciprocal column and dividing by the column.  The flat sum over the
  64·256 entries of a sample is the double sum over clusters and channels (`sum_flat`).
-/
import Idealize.ShloMosaic.PureOps.Ideal
import Idealize.ShloMosaic.PureOps.Ideal.Laws
import Idealize.ShloMosaic.Lib.ValueIdx

noncomputable section

namespace Cert.Vlad

open Idealize.ShloMosaic Idealize.ShloMosaic.ValueIdx

/-- The lower clamp `ε` of every norm (the f32 word nearest 1e-12). -/
abbrev eps : EReal := Ideal.ofBits .f32 0x2B8CBCCC#32
/-- The word of `-∞`, from which a row maximum starts. -/
abbrev ninf : EReal := Ideal.ofBits .f32 0xFF800000#32

/-- `ε` is a positive real. -/
theorem eps_pos : (0 : EReal) < eps := by
  have h : eps = (((2 ^ 23 + 834764 : ℕ) : ℝ) * (2 : ℝ) ^ ((87 : ℤ) - 127 - 23) : ℝ) := by
    simp [eps, Ideal.ofBits, Ideal.ieee, -EReal.coe_mul]
  rw [h]
  exact_mod_cast (by positivity : (0 : ℝ) < ((2 ^ 23 + 834764 : ℕ) : ℝ) * (2 : ℝ) ^ ((87 : ℤ) - 127 - 23))

/-- The word `1.0` denotes `1`. -/
theorem one_eq : Ideal.ofBits .f32 0x3F800000#32 = 1 := by
  simp [Ideal.ofBits, Ideal.ieee, -EReal.coe_mul]; norm_num

/-- A value clamped below by `ε` is not zero. -/
theorem clamp_ne_zero (y : EReal) : max y eps ≠ 0 :=
  ne_of_gt (lt_of_lt_of_le eps_pos (le_max_right _ _))

/-- Multiplying by the reciprocal of a clamped divisor is dividing by it, for every extended real `x`. -/
theorem mul_recip (x y : EReal) :
    x * Ideal.div (Ideal.ofBits .f32 0x3F800000#32) (max y eps) = Ideal.div x (max y eps) := by
  have h := clamp_ne_zero y
  rw [one_eq]
  unfold Ideal.div
  rw [if_neg h, if_neg h, one_mul]

/-- The sum over the 64·256 flat positions of a sample is the double sum over clusters and channels. -/
theorem sum_flat (f : Fin 64 → Fin 256 → EReal) :
    ∑ j : Fin 16384, f ⟨j.val / 256, by have := j.isLt; omega⟩ ⟨j.val % 256, Nat.mod_lt _ (by decide)⟩
      = ∑ k : Fin 64, ∑ c : Fin 256, f k c := by
  rw [← Fintype.sum_prod_type' (f := f)]
  exact Fintype.sum_equiv (finProdFinEquiv (m := 64) (n := 256)).symm _ _ (fun j => rfl)

/-- The Euclidean norm of a finite family, clamped below by `ε`. -/
def cnorm {n : ℕ} (v : Fin n → EReal) : EReal := max (Ideal.sqrt (∑ c, v c * v c)) eps

section Sample

variable (X : Fin 2048 → Fin 256 → EReal) (W : Fin 64 → Fin 256 → EReal) (B : Fin 64 → EReal)
  (Cn : Fin 64 → Fin 256 → EReal)

/-- A row scaled to unit length. -/
def xn (t : Fin 2048) (c : Fin 256) : EReal := Ideal.div (X t c) (cnorm (X t))

/-- The cluster scores of a row. -/
def logit (t : Fin 2048) (k : Fin 64) : EReal := (∑ c, xn X t c * W k c) + B k

/-- The largest score of a row (from `-∞`). -/
def lmax (t : Fin 2048) : EReal := max ninf (Finset.univ.fold max ninf (fun k => logit X W B t k))

/-- The shifted exponentials of a row's scores. -/
def ex (t : Fin 2048) (k : Fin 64) : EReal := Ideal.exp (logit X W B t k - lmax X W B t)

/-- The soft assignment of a row to the clusters. -/
def asg (t : Fin 2048) (k : Fin 64) : EReal := Ideal.div (ex X W B t k) (∑ k', ex X W B t k')

/-- The soft-assigned residuals to each cluster centre. -/
def vlad (k : Fin 64) (c : Fin 256) : EReal :=
  (∑ t, asg X W B t k * xn X t c) - (∑ t, asg X W B t k) * Cn k c

/-- Each cluster's residual row scaled to unit length. -/
def vn (k : Fin 64) (c : Fin 256) : EReal := Ideal.div (vlad X W B Cn k c) (cnorm (vlad X W B Cn k))

/-- The whole 64·256 vector scaled to unit length. -/
def out (k : Fin 64) (c : Fin 256) : EReal :=
  Ideal.div (vn X W B Cn k c) (max (Ideal.sqrt (∑ k', ∑ c', vn X W B Cn k' c' * vn X W B Cn k' c')) eps)

end Sample

/-- `out` of equal arguments at equal positions. -/
theorem out_congr {X X' : Fin 2048 → Fin 256 → EReal} {W W' : Fin 64 → Fin 256 → EReal} {B B' : Fin 64 → EReal}
    {Cn Cn' : Fin 64 → Fin 256 → EReal} {k k' : Fin 64} {c c' : Fin 256}
    (hX : X = X') (hW : W = W') (hB : B = B') (hC : Cn = Cn') (hk : k = k') (hc : c = c') :
    out X W B Cn k c = out X' W' B' Cn' k' c' := by
  subst hX hW hB hC hk hc; rfl

/-- The aggregate of all 64 samples as a [64, 64, 256] array of the argument arrays: entry `(n, k, c)` is `out`
    of sample `n`. -/
def arr (x0 : (⟨3, ![64, 2048, 256]⟩ : Shape).Idx → EReal) (x1 : (⟨2, ![64, 256]⟩ : Shape).Idx → EReal)
    (x2 : (⟨1, ![64]⟩ : Shape).Idx → EReal) (x3 : (⟨2, ![64, 256]⟩ : Shape).Idx → EReal) :
    (⟨3, ![64, 64, 256]⟩ : Shape).Idx → EReal := fun i =>
  out (fun t c => x0 (ix3 (⟨(i 0).val, (i 0).isLt⟩ : Fin 64) t c)) (fun k c => x1 (ix2 k c)) (fun k => x2 (ix1 k))
    (fun k c => x3 (ix2 k c)) ⟨(i 1).val, (i 1).isLt⟩ ⟨(i 2).val, (i 2).isLt⟩

/-- The same flattened to [64, 16384]: entry `(n, j)` is entry `(n, j / 256, j % 256)`. -/
def result (x0 : (⟨3, ![64, 2048, 256]⟩ : Shape).Idx → EReal) (x1 : (⟨2, ![64, 256]⟩ : Shape).Idx → EReal)
    (x2 : (⟨1, ![64]⟩ : Shape).Idx → EReal) (x3 : (⟨2, ![64, 256]⟩ : Shape).Idx → EReal) :
    (⟨2, ![64, 16384]⟩ : Shape).Idx → EReal := fun i =>
  arr x0 x1 x2 x3 (ix3 (⟨(i 0).val, (i 0).isLt⟩ : Fin 64)
    (⟨(i 1).val / 256, by have h : (i 1).val < 16384 := (i 1).isLt; omega⟩ : Fin 64)
    (⟨(i 1).val % 256, Nat.mod_lt _ (by decide)⟩ : Fin 256))

end Cert.Vlad

end
-- ==== Proof.RefValue.lean ====
/-
  The reference program, one stage at a time, is the NetVLAD aggregation of the specification.

  The reference takes a batch of 64 samples (each 2048 rows of 256 channels), 64 cluster weight rows, 64 biases and
  64 cluster centres.  For one sample `X` its stages are, as formulas of the rows of `X`:
    * the row norm  max (√(Σ_c X t c²)) ε, a column of one entry per row; the sum of squares starts from the word
      of zero, which denotes 0, so the initial value drops out;
    * the unit rows  xn t c = X t c / (row norm of t), the quotient of the extended reals;
    * the scores  logit t k = Σ_c xn t c · W k c + B k, a contraction over the channels plus the bias row;
    * the row maximum of the scores, a fold of `max` from the word of −∞ over the 64 clusters, then once more
      `max` with that word;
    * the shifted exponentials  exp (logit t k − row maximum)  and their quotient by their sum over the clusters:
      the soft assignment asg t k;
    * the residual sums  vlad k c = Σ_t asg t k · xn t c − (Σ_t asg t k) · C k c, a contraction over the rows and a
      sum over the rows times the centre;
    * the unit cluster rows  vn k c = vlad k c / max (√(Σ_c vlad k c²)) ε;
    * the flattening of (k, c) to j = 256·k + c, under which the sum of squares over the 16384 flat positions is the
      double sum over clusters and channels, and the final quotient by  max (√(Σ_k Σ_c vn k c²)) ε.
  Each lemma below reads one group of stages at literal coordinates and identifies it with the specification's
  function of the sample; the last one assembles the [64, 16384] result.
-/
import proofs.«137891_j21844203668356_2_alg».proof.Proof.Gen.ReferenceIdeal.Read
import proofs.«137891_j21844203668356_2_alg».proof.Proof.Spec

noncomputable section

namespace Cert.ReferenceIdeal.RefValue

open Cert.ReferenceIdeal Cert.ReferenceIdeal.Read Idealize.ShloMosaic Idealize.ShloMosaic.ValueIdx

/-- Two rank-3 indices with the same three coordinates are equal. -/
private theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Two rank-2 indices with the same two coordinates are equal. -/
private theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Two rank-1 indices with the same coordinate are equal. -/
private theorem ext1 {n0 : Nat} {i j : (⟨1, ![n0]⟩ : Shape).Idx} (h0 : (i 0).val = (j 0).val) : i = j :=
  funext fun a => Fin.ext (by match a with | ⟨0, _⟩ => exact h0)

section Stages

variable (x0 : (⟨S64x2048x256, .f32⟩ : BufTy).Contents (Elt Ideal)) (x1 : (⟨S64x256, .f32⟩ : BufTy).Contents (Elt Ideal))
  (x2 : (⟨S64, .f32⟩ : BufTy).Contents (Elt Ideal)) (x3 : (⟨S64x256, .f32⟩ : BufTy).Contents (Elt Ideal))

/-- Sample `n` of the batch as rows of channels. -/
abbrev smp (n : Fin 64) : Fin 2048 → Fin 256 → EReal := fun t c => x0 (ix3 n t c)
/-- The cluster weights as rows of channels. -/
abbrev Wm : Fin 64 → Fin 256 → EReal := fun k c => x1 (ix2 k c)
/-- The cluster biases. -/
abbrev Bv : Fin 64 → EReal := fun k => x2 (ix1 k)
/-- The cluster centres as rows of channels. -/
abbrev Cm : Fin 64 → Fin 256 → EReal := fun k c => x3 (ix2 k c)

/-- The clamped norm column of sample `n` at row `t`: the square root of the row's sum of squares, at least `ε`. -/
theorem rownorm_eq (n : Fin 64) (t : Fin 2048) :
    val_main_v2 (F := Ideal) x0 (ix3 n t (0 : Fin 1)) = Cert.Vlad.cnorm (smp x0 n t) := by
  rw [val_main_v2_apply, val_main_v0_apply, val_main_call0_v2_apply, val_main_call0_v1_apply,
    val_main_v1_apply, val_main_cst_apply, val_main_call0_cst_apply]
  simp only [Ideal.maximumf_def, Ideal.hostUnary_sqrt_def, Ideal.ofBits_def, Ideal.ofBits_zero_f32, zero_add]
  unfold Cert.Vlad.cnorm
  refine congrArg (fun s => max (Ideal.sqrt s) Cert.Vlad.eps) (Finset.sum_congr rfl fun c _ => ?_)
  rw [val_main_call0_v0_apply, Ideal.mulf_def]
  exact congrArg (fun z => z * z) (congrArg x0 (ext3 rfl rfl rfl))

/-- The unit rows: entry `(t, c)` of sample `n` divided by its row's clamped norm. -/
theorem xn_eq (n : Fin 64) (t : Fin 2048) (c : Fin 256) :
    val_main_v4 (F := Ideal) x0 (ix3 n t c) = Cert.Vlad.xn (smp x0 n) t c := by
  rw [val_main_v4_apply, val_main_v3_apply, Ideal.hostDivf_def]
  unfold Cert.Vlad.xn
  refine congrArg (Ideal.div (x0 (ix3 n t c))) ?_
  exact (congrArg (val_main_v2 (F := Ideal) x0)
    (ext3 rfl rfl rfl : idx_main_v3 (ix3 n t c) = ix3 n t (0 : Fin 1))).trans (rownorm_eq x0 n t)

/-- The scores: the unit row `t` against weight row `k`, plus bias `k`. -/
theorem logit_eq (n : Fin 64) (t : Fin 2048) (k : Fin 64) :
    val_main_v8 (F := Ideal) x0 x1 x2 (ix3 n t k) = Cert.Vlad.logit (smp x0 n) (Wm x1) (Bv x2) t k := by
  rw [val_main_v8_apply, val_main_v5_apply, val_main_v7_apply, val_main_v6_apply, Ideal.addf_def]
  unfold Cert.Vlad.logit
  have eb : x2 (idx_main_v6 (idx_main_v7 (ix3 n t k))) = Bv x2 k :=
    congrArg x2 (ext1 rfl : idx_main_v6 (idx_main_v7 (ix3 n t k)) = ix1 k)
  rw [eb]
  refine congrArg (· + Bv x2 k) (Finset.sum_congr rfl fun c _ => ?_)
  have ew : x1 (ridx_main_v5 (ix3 n t k) c) = Wm x1 k c :=
    congrArg x1 (ext2 rfl rfl : ridx_main_v5 (ix3 n t k) c = ix2 k c)
  have ex : val_main_v4 (F := Ideal) x0 (lidx_main_v5 (ix3 n t k) c) = Cert.Vlad.xn (smp x0 n) t c :=
    (congrArg (val_main_v4 (F := Ideal) x0) (ext3 rfl rfl rfl : lidx_main_v5 (ix3 n t k) c = ix3 n t c)).trans
      (xn_eq x0 n t c)
  rw [ew, ex]

/-- Result index `(n, t)` with cluster `k` put back on the reduced axis is `(n, t, k)`. -/
private theorem lift_cluster (h : S64x2048x64.Reduces [2] S64x2048) (n : Fin 64) (t : Fin 2048) (k : Fin 64) :
    h.lift (ix2 n t) k = ix3 n t k := by
  funext c; apply Fin.ext
  match c with | ⟨0, _⟩ => rfl | ⟨1, _⟩ => rfl | ⟨2, _⟩ => rfl

/-- The row maximum of the scores: the fold of `max` from the word of `-∞` over the clusters, and `max` with that
    word once more. -/
theorem lmax_eq (n : Fin 64) (t : Fin 2048) :
    val_main_v11 (F := Ideal) x0 x1 x2 (ix2 n t) = Cert.Vlad.lmax (smp x0 n) (Wm x1) (Bv x2) t := by
  rw [val_main_v11_apply, val_main_v10_apply, val_main_cst_1_apply, Ideal.maximumf_def, Ideal.ofBits_def]
  unfold Cert.Vlad.lmax
  refine congrArg (max Cert.Vlad.ninf) ?_
  unfold val_main_v9
  have h : S64x2048x64.Reduces [2] S64x2048 := by decide
  refine (Host.reduce_eq_fold_single FloatOps.maximumf _ _ _ h _ (ix2 n t)).trans ?_
  have hf : (val_main_v8 (F := Ideal) x0 x1 x2 ∘ h.lift (ix2 n t))
      = fun k : Fin 64 => Cert.Vlad.logit (smp x0 n) (Wm x1) (Bv x2) t k :=
    funext fun k => (congrArg (val_main_v8 (F := Ideal) x0 x1 x2) (lift_cluster h n t k)).trans (logit_eq x0 x1 x2 n t k)
  exact congrArg (fun f => Finset.fold max Cert.Vlad.ninf f (Finset.univ : Finset (Fin 64))) hf

/-- The shifted exponentials: `exp` of the score less its row's maximum. -/
theorem ex_eq (n : Fin 64) (t : Fin 2048) (k : Fin 64) :
    val_main_v15 (F := Ideal) x0 x1 x2 (ix3 n t k) = Cert.Vlad.ex (smp x0 n) (Wm x1) (Bv x2) t k := by
  rw [val_main_v15_apply, val_main_v14_apply, val_main_v13_apply, val_main_v12_apply, Ideal.hostUnary_exp_def,
    Ideal.subf_def, logit_eq]
  unfold Cert.Vlad.ex
  have em : val_main_v11 (F := Ideal) x0 x1 x2 (idx_main_v12 (idx_main_v13 (ix3 n t k)))
      = Cert.Vlad.lmax (smp x0 n) (Wm x1) (Bv x2) t :=
    (congrArg (val_main_v11 (F := Ideal) x0 x1 x2)
      (ext2 rfl rfl : idx_main_v12 (idx_main_v13 (ix3 n t k)) = ix2 n t)).trans (lmax_eq x0 x1 x2 n t)
  rw [em]

/-- The soft assignment: the shifted exponential over the sum of its row's shifted exponentials. -/
theorem asg_eq (n : Fin 64) (t : Fin 2048) (k : Fin 64) :
    val_main_v19 (F := Ideal) x0 x1 x2 (ix3 n t k) = Cert.Vlad.asg (smp x0 n) (Wm x1) (Bv x2) t k := by
  rw [val_main_v19_apply, val_main_v18_apply, val_main_v17_apply, val_main_v16_apply, val_main_cst_2_apply,
    Ideal.hostDivf_def, Ideal.ofBits_def, Ideal.ofBits_zero_f32, zero_add, ex_eq]
  unfold Cert.Vlad.asg
  refine congrArg (Ideal.div (Cert.Vlad.ex (smp x0 n) (Wm x1) (Bv x2) t k)) (Finset.sum_congr rfl fun k' _ => ?_)
  exact (congrArg (val_main_v15 (F := Ideal) x0 x1 x2)
    (ext3 rfl rfl rfl : idx_main_v16 (idx_main_v17 (idx_main_v18 (ix3 n t k))) k' = ix3 n t k')).trans
      (ex_eq x0 x1 x2 n t k')

/-- The soft-assigned residual sums to the centre of cluster `k`: the assignments against the unit rows summed over
    the rows, less the summed assignments times the centre. -/
theorem vlad_eq (n k : Fin 64) (c : Fin 256) :
    val_main_v27 (F := Ideal) x0 x1 x2 x3 (ix3 n k c)
      = Cert.Vlad.vlad (smp x0 n) (Wm x1) (Bv x2) (Cm x3) k c := by
  rw [val_main_v27_apply, val_main_v20_apply, val_main_v26_apply, val_main_v24_apply, val_main_v22_apply,
    val_main_v21_apply, val_main_cst_3_apply, val_main_v25_apply, val_main_v23_apply,
    Ideal.subf_def, Ideal.mulf_def, Ideal.ofBits_def, Ideal.ofBits_zero_f32, zero_add]
  unfold Cert.Vlad.vlad
  have ec : x3 (idx_main_v23 (idx_main_v25 (ix3 n k c))) = Cm x3 k c :=
    congrArg x3 (ext2 rfl rfl : idx_main_v23 (idx_main_v25 (ix3 n k c)) = ix2 k c)
  rw [ec]
  refine congrArg₂ (· - ·) (Finset.sum_congr rfl fun t _ => ?_)
    (congrArg (· * Cm x3 k c) (Finset.sum_congr rfl fun t _ => ?_))
  · exact congrArg₂ (· * ·)
      ((congrArg (val_main_v19 (F := Ideal) x0 x1 x2)
        (ext3 rfl rfl rfl : lidx_main_v20 (ix3 n k c) t = ix3 n t k)).trans (asg_eq x0 x1 x2 n t k))
      ((congrArg (val_main_v4 (F := Ideal) x0)
        (ext3 rfl rfl rfl : ridx_main_v20 (ix3 n k c) t = ix3 n t c)).trans (xn_eq x0 n t c))
  · exact (congrArg (val_main_v19 (F := Ideal) x0 x1 x2)
      (ext3 rfl rfl rfl : idx_main_v21 (idx_main_v22 (idx_main_v24 (ix3 n k c))) t = ix3 n t k)).trans
        (asg_eq x0 x1 x2 n t k)

/-- The unit cluster rows: the residual row of cluster `k` divided by its clamped norm. -/
theorem vn_eq (n k : Fin 64) (c : Fin 256) :
    val_main_v32 (F := Ideal) x0 x1 x2 x3 (ix3 n k c)
      = Cert.Vlad.vn (smp x0 n) (Wm x1) (Bv x2) (Cm x3) k c := by
  rw [val_main_v32_apply, val_main_v31_apply, val_main_v30_apply, val_main_v28_apply, val_main_call1_v2_apply,
    val_main_call1_v1_apply, val_main_call1_cst_apply, val_main_v29_apply, val_main_cst_4_apply, vlad_eq]
  simp only [Ideal.hostDivf_def, Ideal.maximumf_def, Ideal.hostUnary_sqrt_def, Ideal.ofBits_def,
    Ideal.ofBits_zero_f32, zero_add]
  unfold Cert.Vlad.vn Cert.Vlad.cnorm
  refine congrArg (fun s => Ideal.div (Cert.Vlad.vlad (smp x0 n) (Wm x1) (Bv x2) (Cm x3) k c)
    (max (Ideal.sqrt s) Cert.Vlad.eps)) (Finset.sum_congr rfl fun c' _ => ?_)
  rw [val_main_call1_v0_apply, Ideal.mulf_def]
  exact congrArg (fun z => z * z) ((congrArg (val_main_v27 (F := Ideal) x0 x1 x2 x3)
    (ext3 rfl rfl rfl : idx_main_call1_v1 (idx_main_call1_v2 (idx_main_v31 (ix3 n k c))) c' = ix3 n k c')).trans
      (vlad_eq x0 x1 x2 x3 n k c'))

/-- The flattening: flat position `j` of sample `n` is entry `(j / 256, j % 256)` of the unit cluster rows. -/
theorem flat_eq (n : Fin 64) (j : Fin 16384) :
    val_main_v33 (F := Ideal) x0 x1 x2 x3 (ix2 n j)
      = Cert.Vlad.vn (smp x0 n) (Wm x1) (Bv x2) (Cm x3) ⟨j.val / 256, by have := j.isLt; omega⟩
          ⟨j.val % 256, Nat.mod_lt _ (by decide)⟩ := by
  rw [val_main_v33_apply]
  have e : idx_main_v33 (ix2 n j)
      = ix3 n (⟨j.val / 256, by have := j.isLt; omega⟩ : Fin 64) (⟨j.val % 256, Nat.mod_lt _ (by decide)⟩ : Fin 256) :=
    ext3 (by show (n.val * 16384 + j.val) / 16384 = n.val; have := j.isLt; omega)
      (by show (n.val * 16384 + j.val) / 256 % 64 = j.val / 256; have := j.isLt; omega)
      (by show (n.val * 16384 + j.val) % 256 = j.val % 256; omega)
  exact (congrArg (val_main_v32 (F := Ideal) x0 x1 x2 x3) e).trans (vn_eq x0 x1 x2 x3 n _ _)

/-- The result at flat position `j` of sample `n`: the unit cluster rows divided by the clamped norm of all
    64·256 of them, the sum of squares over the flat positions being the double sum over clusters and channels. -/
theorem out_eq (n : Fin 64) (j : Fin 16384) :
    val_main_v38 (F := Ideal) x0 x1 x2 x3 (ix2 n j)
      = Cert.Vlad.out (smp x0 n) (Wm x1) (Bv x2) (Cm x3) ⟨j.val / 256, by have := j.isLt; omega⟩
          ⟨j.val % 256, Nat.mod_lt _ (by decide)⟩ := by
  rw [val_main_v38_apply, val_main_v37_apply, val_main_v36_apply, val_main_v34_apply, val_main_call2_v2_apply,
    val_main_call2_v1_apply, val_main_call2_cst_apply, val_main_v35_apply, val_main_cst_5_apply, flat_eq]
  simp only [Ideal.hostDivf_def, Ideal.maximumf_def, Ideal.hostUnary_sqrt_def, Ideal.ofBits_def,
    Ideal.ofBits_zero_f32, zero_add]
  unfold Cert.Vlad.out
  refine congrArg (fun s => Ideal.div (Cert.Vlad.vn (smp x0 n) (Wm x1) (Bv x2) (Cm x3)
    ⟨j.val / 256, by have := j.isLt; omega⟩ ⟨j.val % 256, Nat.mod_lt _ (by decide)⟩)
    (max (Ideal.sqrt s) Cert.Vlad.eps)) ?_
  refine Eq.trans (Finset.sum_congr rfl fun j' _ => ?_)
    (Cert.Vlad.sum_flat (fun k' c' => Cert.Vlad.vn (smp x0 n) (Wm x1) (Bv x2) (Cm x3) k' c'
      * Cert.Vlad.vn (smp x0 n) (Wm x1) (Bv x2) (Cm x3) k' c'))
  rw [val_main_call2_v0_apply, Ideal.mulf_def]
  exact congrArg (fun z => z * z) ((congrArg (val_main_v33 (F := Ideal) x0 x1 x2 x3)
    (ext2 rfl rfl : idx_main_call2_v1 (idx_main_call2_v2 (idx_main_v37 (ix2 n j))) j' = ix2 n j')).trans
      (flat_eq x0 x1 x2 x3 n j'))

end Stages

/-- The reference's result is the specification's aggregate: at `(n, j)`, entry `(j / 256, j % 256)` of the
    normalised residual array of sample `n`. -/
theorem result_eq (x0 : (⟨S64x2048x256, .f32⟩ : BufTy).Contents (Elt Ideal)) (x1 : (⟨S64x256, .f32⟩ : BufTy).Contents (Elt Ideal))
    (x2 : (⟨S64, .f32⟩ : BufTy).Contents (Elt Ideal)) (x3 : (⟨S64x256, .f32⟩ : BufTy).Contents (Elt Ideal)) :
    val_main_v38 (F := Ideal) x0 x1 x2 x3 = Cert.Vlad.result x0 x1 x2 x3 := by
  funext i
  obtain ⟨n, j, rfl⟩ : ∃ (n : Fin 64) (j : Fin 16384), i = ix2 n j := ⟨i 0, i 1, eq_ix2 i⟩
  rw [out_eq]
  rfl

end Cert.ReferenceIdeal.RefValue

end
-- ==== Proof.Layout.lean ====
/-
  Shape changes and reductions of small ranks read at an index written by coordinates.

  A `keepdims` reduction leaves a trailing axis of extent one: casting [a, b] to [a, b, 1] keeps entry (p, q), and
  broadcasting [a, b, 1] back to [a, b, c] repeats entry (p, q, 0) along the last axis; likewise a [1, b, c] array
  broadcast over a leading axis repeats (0, q, r), and an [a, 1, 1] array broadcast to [a, b, c] repeats (p, 0, 0).
  Merging the two leading axes [2, 2048, ·] ↔ [4096, ·] matches (p, t) with row p·2048 + t.  A sum or maximum over
  one axis of a rank-3 or rank-2 array, at the extended reals, is the finite sum (fold of `max`) over that axis's
  coordinates.
-/
import Idealize.ShloMosaic.Lib.Pipeline.Value
import Idealize.ShloMosaic.Lib.ValueIdx
import Idealize.ShloMosaic.PureOps.Ideal.Laws

noncomputable section

namespace Cert.Vlad.Layout

open Idealize.ShloMosaic Idealize.ShloMosaic.ValueIdx

variable {α : Type}

/-! ## Unit axes added and repeated -/

/-- An [a, b] array cast to [a, b, 1] reads, at (p, q, u), the operand at (p, q). -/
theorem cast_col {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a] vector cast to [a, 1] reads, at (p, u), the operand at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, b, 1] array broadcast to [a, b, c] reads, at (p, q, r), the operand at (p, q, 0). -/
theorem bcast_col {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    rfl

/-- A [1, b, c] array broadcast to [a, b, c] reads, at (p, q, r), the operand at (0, q, r). -/
theorem bcast_lead {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ =>
    show 0 = if 1 = 1 then 0 else p.val
    rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An [a, 1, 1] array broadcast to [a, b, c] reads, at (p, q, r), the operand at (p, 0, 0). -/
theorem bcast_rows {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ =>
    show 0 = if 1 = 1 then 0 else q.val
    rfl
  | ⟨2, _⟩ =>
    show 0 = if 1 = 1 then 0 else r.val
    rfl

/-! ## The two leading axes merged and split -/

/-- A [2, 2048, c] array cast to [4096, c] reads, at row p·2048 + t, the operand at (p, t, ·). -/
theorem cast_flat {c : ℕ} (x : (⟨3, ![2, 2048, c]⟩ : Shape).Idx → α)
    (h : (⟨3, ![2, 2048, c]⟩ : Shape).ShapeCasts ⟨2, ![4096, c]⟩) (p : Fin 2) (t : Fin 2048) (r : Fin c) :
    shapeCast ⟨2, ![4096, c]⟩ x h (ix2 (⟨p.val * 2048 + t.val, by have := p.isLt; have := t.isLt; omega⟩ : Fin 4096) r)
      = x (ix3 p t r) :=
  shapeCast_apply x h _ _ (by
    rw [Shape.rowMajor_val_three, Shape.rowMajor_val_two]
    rfl)

/-- A [4096, c] array cast to [2, 2048, c] reads, at (p, t, ·), the operand at row p·2048 + t. -/
theorem cast_unflat {c : ℕ} (x : (⟨2, ![4096, c]⟩ : Shape).Idx → α)
    (h : (⟨2, ![4096, c]⟩ : Shape).ShapeCasts ⟨3, ![2, 2048, c]⟩) (p : Fin 2) (t : Fin 2048) (r : Fin c) :
    shapeCast ⟨3, ![2, 2048, c]⟩ x h (ix3 p t r)
      = x (ix2 (⟨p.val * 2048 + t.val, by have := p.isLt; have := t.isLt; omega⟩ : Fin 4096) r) :=
  shapeCast_apply x h _ _ (by
    rw [Shape.rowMajor_val_three, Shape.rowMajor_val_two]
    rfl)

/-! ## Reductions over one axis, at the extended reals -/

/-- The sum over the last axis of a rank-3 array, at (p, q), is the sum over that axis's coordinates. -/
theorem sum_axis2 {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun d => Fin.ext (by
      match d with | ⟨0, _⟩ => rfl | ⟨1, _⟩ => rfl | ⟨2, _⟩ => rfl)))

/-- The sum over the middle axis of a rank-3 array, at (p, r). -/
theorem sum_axis1 {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (r : Fin c) :
    multiReduction .add [1] ⟨2, ![a, c]⟩ src acc h hφ hacc (ix2 p r) = ∑ k : Fin b, src (ix3 p k r) :=
  (Ideal.multiReduction_add_single src acc h hφ hacc (ix2 p r)).trans
    (Finset.sum_congr rfl fun k _ => congrArg src (funext fun d => Fin.ext (by
      match d with | ⟨0, _⟩ => rfl | ⟨1, _⟩ => rfl | ⟨2, _⟩ => rfl)))

/-- The sum over the last axis of a rank-2 array, at p. -/
theorem sum_rows {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun d => Fin.ext (by
      match d with | ⟨0, _⟩ => rfl | ⟨1, _⟩ => rfl)))

/-- The maximum over the last axis of a rank-3 array, at (p, q): the fold of `max` from the accumulator's value. -/
theorem max_axis2 {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) :=
  (Ideal.multiReduction_maximumf_single src acc h hφ hacc (ix2 p q)).trans
    (congrArg (fun f => Finset.fold max (Ideal.ofBits .f32 acc) f (Finset.univ : Finset (Fin c)))
      (funext fun k => congrArg src (funext fun d => Fin.ext (by
        match d with | ⟨0, _⟩ => rfl | ⟨1, _⟩ => rfl | ⟨2, _⟩ => rfl))))

end Cert.Vlad.Layout

end
-- ==== Proof.KerValue.lean ====
/-
  What the fused kernel's body computes on one block of two samples, read entry by entry at the extended reals.

  The body loads a block X of two samples (2 × 2048 rows × 256 channels), the transposed cluster weights (256 × 64),
  the biases (1 × 64) and the cluster centres (64 × 256).  It scales each row by the reciprocal of its clamped norm,
  multiplies the 4096 merged rows by the weights and adds the bias, takes the softmax over the 64 clusters, contracts
  the assignments with the scaled rows over the 2048 rows of each sample, subtracts the assignment mass times the
  centres, scales each cluster row by the reciprocal of its clamped norm, and scales the whole 64·256 vector of each
  sample by the reciprocal of its clamped norm (summed over channels, then over clusters).  Each stage is named here
  as a vector and read at an index; multiplying by a reciprocal of a clamped norm is dividing by it (`mul_recip`),
  so entry (p, k, c) of the stored block is `Vlad.out` of sample p of the block.
-/
import proofs.«137891_j21844203668356_2_alg».proof.Proof.Gen.KernelIdeal.Skeleton
import proofs.«137891_j21844203668356_2_alg».proof.Proof.Spec
import proofs.«137891_j21844203668356_2_alg».proof.Proof.Layout
import Idealize.ShloMosaic.Lib.ValueLayout

noncomputable section

namespace Cert.KernelIdeal.KerValue

open Cert.KernelIdeal Cert.KernelIdeal.Gen Idealize.ShloMosaic Idealize.ShloMosaic.ValueIdx Cert.Vlad Cert.Vlad.Layout

/-- Sample `p` of a block of two samples, as rows of channels. -/
abbrev smp (x0 : Vec Ideal S2x2048x256 .f32) (p : Fin 2) : Fin 2048 → Fin 256 → EReal := fun t c => x0 (ix3 p t c)
/-- The cluster weights, read back from their transposed block. -/
abbrev wt (x1 : Vec Ideal S256x64 .f32) : Fin 64 → Fin 256 → EReal := fun k c => x1 (ix2 c k)
/-- The biases, read from their one-row block. -/
abbrev bias (x2 : Vec Ideal S1x64 .f32) : Fin 64 → EReal := fun k => x2 (ix2 (0 : Fin 1) k)
/-- The cluster centres. -/
abbrev cen (x3 : Vec Ideal S64x256 .f32) : Fin 64 → Fin 256 → EReal := fun k c => x3 (ix2 k c)

/-- The scaled rows: entry (p, t, c) is row t of sample p divided by its clamped norm. -/
theorem pay2_at (x0 : Vec Ideal S2x2048x256 .f32) (p : Fin 2) (t : Fin 2048) (c : Fin 256) :
    k0_pay2 (F := Ideal) x0 (ix3 p t c) = xn (smp x0 p) t c := by
  unfold k0_pay2
  dsimp only
  show x0 (ix3 p t c) * (broadcastTo S2x2048x256 _ _ (ix3 p t c)) = _
  rw [bcast_col]
  show x0 (ix3 p t c) * Ideal.div (Ideal.ofBits .f32 0x3F800000#32)
    (max (Ideal.sqrt (shapeCast S2x2048x1 _ _ (ix3 p t (0 : Fin 1)))) eps) = _
  rw [cast_col, mul_recip]
  unfold xn cnorm
  refine congrArg (fun s => Ideal.div (x0 (ix3 p t c)) (max (Ideal.sqrt s) eps)) ?_
  exact sum_axis2 _ _ _ _ _ p t

/-! ## The two matrix products read at an index -/

/-- The first product (4096 merged rows × 256 channels by 256 × 64, into a zero accumulator) at (i, k) is the sum
    over the channels. -/
theorem mm1_at (l : FVec Ideal S4096x256 .bf16) (r : FVec Ideal S256x64 .bf16) (i : Fin 4096) (k : Fin 64) :
    matmul dot_S4096x256_S256x64_S4096x64_1_0_0_1_n_n none l r (constant S4096x64 .f32 0x00000000#32) (ix2 i k)
      = ∑ c : Fin 256, l (ix2 i c) * r (ix2 c k) := by
  refine (Ideal.matmul_constant_zero_apply dot_S4096x256_S256x64_S4096x64_1_0_0_1_n_n none l r (ix2 i k)).trans ?_
  rw [← Equiv.sum_comp (ValueIdx.contrEquiv1 dot_S4096x256_S256x64_S4096x64_1_0_0_1_n_n 256 rfl rfl).symm]
  refine Finset.sum_congr rfl fun c _ => ?_
  have hk := ValueIdx.contrEquiv1_symm_val dot_S4096x256_S256x64_S4096x64_1_0_0_1_n_n 256 rfl rfl c
  have l0 : ∀ q, (dot_S4096x256_S256x64_S4096x64_1_0_0_1_n_n.lhsIdx (ix2 i k) q 0).val = i.val := fun q => by
    unfold DotDims.lhsIdx
    rw [dif_neg (show ¬(0 : Fin S4096x256.rank) ∈ dot_S4096x256_S256x64_S4096x64_1_0_0_1_n_n.lhsBatch by decide),
      dif_pos (show (0 : Fin S4096x256.rank) ∈ dot_S4096x256_S256x64_S4096x64_1_0_0_1_n_n.lhsNonContracting by decide)]
    rfl
  have r1 : ∀ q, (dot_S4096x256_S256x64_S4096x64_1_0_0_1_n_n.rhsIdx (ix2 i k) q 1).val = k.val := fun q => by
    unfold DotDims.rhsIdx
    rw [dif_neg (show ¬(1 : Fin S256x64.rank) ∈ dot_S4096x256_S256x64_S4096x64_1_0_0_1_n_n.rhsBatch by decide),
      dif_pos (show (1 : Fin S256x64.rank) ∈ dot_S4096x256_S256x64_S4096x64_1_0_0_1_n_n.rhsNonContracting by decide)]
    rfl
  have el : dot_S4096x256_S256x64_S4096x64_1_0_0_1_n_n.lhsIdx (ix2 i k) ((ValueIdx.contrEquiv1 dot_S4096x256_S256x64_S4096x64_1_0_0_1_n_n 256 rfl rfl).symm c) = ix2 i c :=
    funext fun a => Fin.ext (by
      match a with
      | ⟨0, _⟩ => exact l0 _
      | ⟨1, _⟩ => exact (dot_S4096x256_S256x64_S4096x64_1_0_0_1_n_n.lhsIdx_val_of_single rfl _ _).trans hk)
  have er : dot_S4096x256_S256x64_S4096x64_1_0_0_1_n_n.rhsIdx (ix2 i k) ((ValueIdx.contrEquiv1 dot_S4096x256_S256x64_S4096x64_1_0_0_1_n_n 256 rfl rfl).symm c) = ix2 c k :=
    funext fun a => Fin.ext (by
      match a with
      | ⟨0, _⟩ => exact (dot_S4096x256_S256x64_S4096x64_1_0_0_1_n_n.rhsIdx_val_of_single rfl _ _).trans hk
      | ⟨1, _⟩ => exact r1 _)
  rw [el, er]

/-- The second product (per sample, 2048 × 64 transposed by 2048 × 256, into a zero accumulator) at (p, k, c) is the
    sum over the rows of sample p. -/
theorem mm2_at (l : FVec Ideal S2x2048x64 .bf16) (r : FVec Ideal S2x2048x256 .bf16) (p : Fin 2) (k : Fin 64) (c : Fin 256) :
    matmul dot_S2x2048x64_S2x2048x256_S2x64x256_1_1_2_2_0_0 none l r (constant S2x64x256 .f32 0x00000000#32) (ix3 p k c)
      = ∑ t : Fin 2048, l (ix3 p t k) * r (ix3 p t c) := by
  refine (Ideal.matmul_constant_zero_apply dot_S2x2048x64_S2x2048x256_S2x64x256_1_1_2_2_0_0 none l r (ix3 p k c)).trans ?_
  rw [← Equiv.sum_comp (ValueIdx.contrEquiv1 dot_S2x2048x64_S2x2048x256_S2x64x256_1_1_2_2_0_0 2048 rfl rfl).symm]
  refine Finset.sum_congr rfl fun t _ => ?_
  have hk := ValueIdx.contrEquiv1_symm_val dot_S2x2048x64_S2x2048x256_S2x64x256_1_1_2_2_0_0 2048 rfl rfl t
  have l0 : ∀ q, (dot_S2x2048x64_S2x2048x256_S2x64x256_1_1_2_2_0_0.lhsIdx (ix3 p k c) q 0).val = p.val := fun q => by
    unfold DotDims.lhsIdx
    rw [dif_pos (show (0 : Fin S2x2048x64.rank) ∈ dot_S2x2048x64_S2x2048x256_S2x64x256_1_1_2_2_0_0.lhsBatch by decide)]
    rfl
  have l2 : ∀ q, (dot_S2x2048x64_S2x2048x256_S2x64x256_1_1_2_2_0_0.lhsIdx (ix3 p k c) q 2).val = k.val := fun q => by
    unfold DotDims.lhsIdx
    rw [dif_neg (show ¬(2 : Fin S2x2048x64.rank) ∈ dot_S2x2048x64_S2x2048x256_S2x64x256_1_1_2_2_0_0.lhsBatch by decide),
      dif_pos (show (2 : Fin S2x2048x64.rank) ∈ dot_S2x2048x64_S2x2048x256_S2x64x256_1_1_2_2_0_0.lhsNonContracting by decide)]
    rfl
  have r0 : ∀ q, (dot_S2x2048x64_S2x2048x256_S2x64x256_1_1_2_2_0_0.rhsIdx (ix3 p k c) q 0).val = p.val := fun q => by
    unfold DotDims.rhsIdx
    rw [dif_pos (show (0 : Fin S2x2048x256.rank) ∈ dot_S2x2048x64_S2x2048x256_S2x64x256_1_1_2_2_0_0.rhsBatch by decide)]
    rfl
  have r2 : ∀ q, (dot_S2x2048x64_S2x2048x256_S2x64x256_1_1_2_2_0_0.rhsIdx (ix3 p k c) q 2).val = c.val := fun q => by
    unfold DotDims.rhsIdx
    rw [dif_neg (show ¬(2 : Fin S2x2048x256.rank) ∈ dot_S2x2048x64_S2x2048x256_S2x64x256_1_1_2_2_0_0.rhsBatch by decide),
      dif_pos (show (2 : Fin S2x2048x256.rank) ∈ dot_S2x2048x64_S2x2048x256_S2x64x256_1_1_2_2_0_0.rhsNonContracting by decide)]
    rfl
  have el : dot_S2x2048x64_S2x2048x256_S2x64x256_1_1_2_2_0_0.lhsIdx (ix3 p k c) ((ValueIdx.contrEquiv1 dot_S2x2048x64_S2x2048x256_S2x64x256_1_1_2_2_0_0 2048 rfl rfl).symm t) = ix3 p t k :=
    funext fun a => Fin.ext (by
      match a with
      | ⟨0, _⟩ => exact l0 _
      | ⟨1, _⟩ => exact (dot_S2x2048x64_S2x2048x256_S2x64x256_1_1_2_2_0_0.lhsIdx_val_of_single rfl _ _).trans hk
      | ⟨2, _⟩ => exact l2 _)
  have er : dot_S2x2048x64_S2x2048x256_S2x64x256_1_1_2_2_0_0.rhsIdx (ix3 p k c) ((ValueIdx.contrEquiv1 dot_S2x2048x64_S2x2048x256_S2x64x256_1_1_2_2_0_0 2048 rfl rfl).symm t) = ix3 p t c :=
    funext fun a => Fin.ext (by
      match a with
      | ⟨0, _⟩ => exact r0 _
      | ⟨1, _⟩ => exact (dot_S2x2048x64_S2x2048x256_S2x64x256_1_1_2_2_0_0.rhsIdx_val_of_single rfl _ _).trans hk
      | ⟨2, _⟩ => exact r2 _)
  rw [el, er]

/-! ## The cluster scores and the soft assignment -/

section Block

variable (x0 : Vec Ideal S2x2048x256 .f32) (x1 : Vec Ideal S256x64 .f32) (x2 : Vec Ideal S1x64 .f32)
  (x3 : Vec Ideal S64x256 .f32)

/-- The scores of the block's rows: the merged rows times the weights, plus the bias, split back per sample. -/
def lg : FVec Ideal S2x2048x64 .f32 :=
  shapeCast S2x2048x64 (addf (matmul dot_S4096x256_S256x64_S4096x64_1_0_0_1_n_n none
      (shapeCast S4096x256 (k0_pay2 x0) shapeCasts_S2x2048x256_S4096x256)
      (truncf .bf16 (shapeCast S256x64 x1 shapeCasts_S256x64_S256x64) bitsLt_bf16_f32)
      (constant S4096x64 .f32 0x00000000#32))
    (broadcastTo S4096x64 (shapeCast S1x64 x2 shapeCasts_S1x64_S1x64) broadcasts_S1x64_S4096x64))
    shapeCasts_S4096x64_S2x2048x64

theorem lg_at (p : Fin 2) (t : Fin 2048) (k : Fin 64) :
    lg x0 x1 x2 (ix3 p t k) = logit (smp x0 p) (wt x1) (bias x2) t k := by
  unfold lg
  rw [cast_unflat]
  show (matmul dot_S4096x256_S256x64_S4096x64_1_0_0_1_n_n none _ _ (constant S4096x64 .f32 0x00000000#32))
      (ix2 (⟨p.val * 2048 + t.val, _⟩ : Fin 4096) k) + broadcastTo S4096x64 _ _ (ix2 (⟨p.val * 2048 + t.val, _⟩ : Fin 4096) k) = _
  rw [broadcastTo_1b_ab_apply, mm1_at]
  simp only [shapeCast_self]
  unfold logit
  refine congrArg₂ (· + ·) (Finset.sum_congr rfl fun c _ => ?_) rfl
  rw [cast_flat, pay2_at]
  rfl

/-- The largest score of each row (from `-∞`). -/
def rowmax : FVec Ideal S2x2048 .f32 :=
  maximumf (broadcast S2x2048 (Scalar.ofBits .f32 0xFF800000#32))
    (multiReduction .maximumf [2] S2x2048 (lg x0 x1 x2) 0xFF800000#32 reduces_S2x2048x64_S2x2048 (.inl rfl) rfl)

theorem rowmax_at (p : Fin 2) (t : Fin 2048) :
    rowmax x0 x1 x2 (ix2 p t) = lmax (smp x0 p) (wt x1) (bias x2) t := by
  unfold rowmax lmax
  refine congrArg (max ninf) ((max_axis2 _ _ _ _ _ p t).trans ?_)
  simp only [lg_at]

/-- The shifted exponentials of the scores. -/
def ee : FVec Ideal S2x2048x64 .f32 :=
  exp (subf (lg x0 x1 x2) (broadcastTo S2x2048x64
    (shapeCast S2x2048x1 (rowmax x0 x1 x2) shapeCasts_S2x2048_S2x2048x1) broadcasts_S2x2048x1_S2x2048x64))

theorem ee_at (p : Fin 2) (t : Fin 2048) (k : Fin 64) :
    ee x0 x1 x2 (ix3 p t k) = ex (smp x0 p) (wt x1) (bias x2) t k := by
  unfold ee ex
  show Ideal.exp (lg x0 x1 x2 (ix3 p t k) - broadcastTo S2x2048x64 _ _ (ix3 p t k)) = _
  rw [bcast_col, cast_col, lg_at, rowmax_at]

/-- The assignment payload is the exponentials over their row sums. -/
theorem pay3_eq : k0_pay3 (F := Ideal) x0 x1 x2 = divf (ee x0 x1 x2) (broadcastTo S2x2048x64
    (shapeCast S2x2048x1 (multiReduction .add [2] S2x2048 (ee x0 x1 x2) 0x00000000#32 reduces_S2x2048x64_S2x2048 (.inl rfl) rfl)
      shapeCasts_S2x2048_S2x2048x1) broadcasts_S2x2048x1_S2x2048x64) := rfl

theorem pay3_at (p : Fin 2) (t : Fin 2048) (k : Fin 64) :
    k0_pay3 (F := Ideal) x0 x1 x2 (ix3 p t k) = asg (smp x0 p) (wt x1) (bias x2) t k := by
  rw [pay3_eq]
  show Ideal.div (ee x0 x1 x2 (ix3 p t k)) (broadcastTo S2x2048x64 _ _ (ix3 p t k)) = _
  rw [bcast_col, cast_col, ee_at]
  unfold asg
  refine congrArg (Ideal.div _) ((sum_axis2 _ _ _ _ _ p t).trans ?_)
  simp only [ee_at]

/-! ## The residual sums -/

theorem pay4_at (p : Fin 2) (k : Fin 64) (c : Fin 256) :
    k0_pay4 (F := Ideal) x0 x1 x2 (ix3 p k c)
      = ∑ t : Fin 2048, asg (smp x0 p) (wt x1) (bias x2) t k * xn (smp x0 p) t c := by
  unfold k0_pay4
  refine (mm2_at _ _ p k c).trans (Finset.sum_congr rfl fun t _ => ?_)
  show k0_pay3 (F := Ideal) x0 x1 x2 (ix3 p t k) * k0_pay2 (F := Ideal) x0 (ix3 p t c) = _
  rw [pay3_at, pay2_at]

theorem pay5_at (p : Fin 2) (k : Fin 64) (c : Fin 256) :
    k0_pay5 (F := Ideal) x0 x1 x2 (ix3 p k c) = ∑ t : Fin 2048, asg (smp x0 p) (wt x1) (bias x2) t k := by
  unfold k0_pay5
  rw [bcast_col, cast_col]
  refine (sum_axis1 _ _ _ _ _ p k).trans ?_
  simp only [pay3_at]

theorem pay6_at (p : Fin 2) (k : Fin 64) (c : Fin 256) :
    k0_pay6 (F := Ideal) x3 (ix3 p k c) = cen x3 k c := by
  unfold k0_pay6
  rw [bcast_lead, shapeCast_ab_1ab_apply]

/-- The residuals to the centres. -/
def vl : FVec Ideal S2x64x256 .f32 :=
  subf (k0_pay4 (F := Ideal) x0 x1 x2) (mulf (k0_pay5 (F := Ideal) x0 x1 x2) (k0_pay6 (F := Ideal) x3))

theorem vl_at (p : Fin 2) (k : Fin 64) (c : Fin 256) :
    vl x0 x1 x2 x3 (ix3 p k c) = vlad (smp x0 p) (wt x1) (bias x2) (cen x3) k c := by
  unfold vl vlad
  show k0_pay4 (F := Ideal) x0 x1 x2 (ix3 p k c) - k0_pay5 (F := Ideal) x0 x1 x2 (ix3 p k c) * k0_pay6 (F := Ideal) x3 (ix3 p k c) = _
  rw [pay4_at, pay5_at, pay6_at]

end Block

/-! ## The two rescalings of the residuals -/

/-- Each cluster row times the reciprocal of its clamped norm. -/
def rowScaled (v : FVec Ideal S2x64x256 .f32) : FVec Ideal S2x64x256 .f32 :=
  mulf v (broadcastTo S2x64x256 (divf (broadcast S2x64x1 (Scalar.ofBits .f32 0x3F800000#32))
    (maximumf (sqrt (shapeCast S2x64x1 (multiReduction .add [2] S2x64 (mulf v v) 0x00000000#32 reduces_S2x64x256_S2x64 (.inl rfl) rfl)
      shapeCasts_S2x64_S2x64x1)) (broadcast S2x64x1 (Scalar.ofBits .f32 0x2B8CBCCC#32)))) broadcasts_S2x64x1_S2x64x256)

theorem rowScaled_at (v : FVec Ideal S2x64x256 .f32) (p : Fin 2) (k : Fin 64) (c : Fin 256) :
    rowScaled v (ix3 p k c) = Ideal.div (v (ix3 p k c)) (cnorm fun c' => v (ix3 p k c')) := by
  unfold rowScaled
  show v (ix3 p k c) * (broadcastTo S2x64x256 _ _ (ix3 p k c)) = _
  rw [bcast_col]
  show v (ix3 p k c) * Ideal.div (Ideal.ofBits .f32 0x3F800000#32)
    (max (Ideal.sqrt (shapeCast S2x64x1 _ _ (ix3 p k (0 : Fin 1)))) eps) = _
  rw [cast_col, mul_recip]
  unfold cnorm
  refine congrArg (fun s => Ideal.div (v (ix3 p k c)) (max (Ideal.sqrt s) eps)) ?_
  exact sum_axis2 _ _ _ _ _ p k

/-- Each sample's whole vector times the reciprocal of its clamped norm (squares summed over channels, then clusters). -/
def allScaled (v : FVec Ideal S2x64x256 .f32) : FVec Ideal S2x64x256 .f32 :=
  mulf v (broadcastTo S2x64x256 (shapeCast S2x1x1 (divf (broadcast S2x1 (Scalar.ofBits .f32 0x3F800000#32))
    (maximumf (sqrt (shapeCast S2x1 (multiReduction .add [1] S2
        (multiReduction .add [2] S2x64 (mulf v v) 0x00000000#32 reduces_S2x64x256_S2x64 (.inl rfl) rfl)
        0x00000000#32 reduces_S2x64_S2 (.inl rfl) rfl) shapeCasts_S2_S2x1))
      (broadcast S2x1 (Scalar.ofBits .f32 0x2B8CBCCC#32)))) shapeCasts_S2x1_S2x1x1) broadcasts_S2x1x1_S2x64x256)

theorem allScaled_at (v : FVec Ideal S2x64x256 .f32) (p : Fin 2) (k : Fin 64) (c : Fin 256) :
    allScaled v (ix3 p k c)
      = Ideal.div (v (ix3 p k c)) (max (Ideal.sqrt (∑ k' : Fin 64, ∑ c' : Fin 256, v (ix3 p k' c') * v (ix3 p k' c'))) eps) := by
  unfold allScaled
  show v (ix3 p k c) * (broadcastTo S2x64x256 _ _ (ix3 p k c)) = _
  rw [bcast_rows, cast_col]
  show v (ix3 p k c) * Ideal.div (Ideal.ofBits .f32 0x3F800000#32)
    (max (Ideal.sqrt (shapeCast S2x1 _ _ (ix2 p (0 : Fin 1)))) eps) = _
  rw [cast_vec_col, mul_recip]
  refine congrArg (fun s => Ideal.div (v (ix3 p k c)) (max (Ideal.sqrt s) eps)) ?_
  refine (sum_rows _ _ _ _ _ p).trans (Finset.sum_congr rfl fun k' _ => ?_)
  exact sum_axis2 _ _ _ _ _ p k'

/-- The stored payload is the two rescalings of the residuals. -/
theorem pay1_eq (v34 v39 v40 : FVec Ideal S2x64x256 .f32) :
    k0_pay1 (F := Ideal) v34 v39 v40 = allScaled (rowScaled (subf v34 (mulf v39 v40))) := rfl

/-- ENTRY (p, k, c) OF THE STORED BLOCK is `Vlad.out` of sample p of the loaded block. -/
theorem stored_at (x0 : Vec Ideal S2x2048x256 .f32) (x1 : Vec Ideal S256x64 .f32) (x2 : Vec Ideal S1x64 .f32)
    (x3 : Vec Ideal S64x256 .f32) (p : Fin 2) (k : Fin 64) (c : Fin 256) :
    k0_pay1 (F := Ideal) (k0_pay4 x0 x1 x2) (k0_pay5 x0 x1 x2) (k0_pay6 x3) (ix3 p k c)
      = out (smp x0 p) (wt x1) (bias x2) (cen x3) k c := by
  rw [pay1_eq]
  show allScaled (rowScaled (vl x0 x1 x2 x3)) (ix3 p k c) = _
  rw [allScaled_at]
  simp only [rowScaled_at, vl_at]
  rfl

end Cert.KernelIdeal.KerValue

end
-- ==== Proof.KerArray.lean ====
/-
  From the blocks the grid points write back to the whole result array, and through the reshapes around the call.

  Grid point t (of 32) loads samples 2t and 2t+1 of the batch, the whole transposed weights, the bias row and the
  centres, and writes back rows 2t and 2t+1 of the [64, 64, 256] result.  The transposed weights are the weights
  with their axes swapped and the bias row is the bias vector with a unit axis in front, so the block's entry
  (p, k, c) is `Vlad.out` of sample 2t+p of the batch: every point writes a block of ONE function of the argument
  arrays (`Vlad.arr`), the 32 blocks cover the array (row n lies in block n / 2), and the array after the run is that
  function.  The reshape after the call reads entry (n, j) of the [64, 16384] result at (n, j / 256, j % 256).
-/
import proofs.«137891_j21844203668356_2_alg».proof.Proof.Gen.KernelIdeal.Frame
import proofs.«137891_j21844203668356_2_alg».proof.Proof.KerValue
import Idealize.ShloMosaic.Lib.Pipeline.Value
import Idealize.ShloMosaic.Lib.StableHlo.Run
import Idealize.ShloMosaic.Lib.ValueLayout

set_option maxRecDepth 16384

noncomputable section

namespace Cert.KernelIdeal.KerArray

open Cert.KernelIdeal Cert.KernelIdeal.Gen Cert.KernelIdeal.KerValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the argument arrays as launched. -/
abbrev G (c : Dev nD) : S64x64x256.Idx → EReal :=
  Cert.Vlad.arr (m ((c : Thread nD τ).loc main_arg0)) (m ((c : Thread nD τ).loc main_arg1))
    (m ((c : Thread nD τ).loc main_arg2)) (m ((c : Thread nD τ).loc main_arg3))

/-! ## The two arrays the host prepares before the call -/

/-- The transposed weights as the call finds them, at (c, k), are the weights at (k, c). -/
theorem V_wt (c : Dev nD) (a : Fin 256) (k : Fin 64) :
    V m c main_v0 (ix2 a k) = m ((c : Thread nD τ).loc main_arg1) (ix2 k a) := by
  have e : (V m c main_v0 : S256x64.Idx → EReal)
      = transpose S256x64 [1, 0] (m ((c : Thread nD τ).loc main_arg1)) transposes_S64x256_S256x64_1_0 := by
    show StableHlo.after hostOps0 (fun b => m (c, b)) (Proc.devRef .tc main_v0) = _
    after_results <;> rfl
  rw [e]
  exact transpose_ix2_apply _ _ a k

/-- The bias row as the call finds it, at (0, k), is the bias at k. -/
theorem V_bias (c : Dev nD) (u : Fin 1) (k : Fin 64) :
    V m c main_v1 (ix2 u k) = m ((c : Thread nD τ).loc main_arg2) (ix1 k) := by
  have e : (V m c main_v1 : S1x64.Idx → EReal)
      = shapeCast S1x64 (m ((c : Thread nD τ).loc main_arg2)) shapeCasts_S64_S1x64 := by
    show StableHlo.after hostOps0 (fun b => m (c, b)) (Proc.devRef .tc main_v1) = _
    after_results <;> rfl
  rw [e]
  exact shapeCast_a_1a_apply _ _ u k

/-! ## Where each window's block sits -/

/-- The printed index maps, decided over the 32 points: the sample windows move with the point, the others stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Sample p of the block loaded at point t is sample 2t + p of the batch. -/
theorem blk_sample (c : Dev nD) (t : Fin cfg0.N) (p : Fin 2) (n : Fin 64) (hn : n.val = t.val * 2 + p.val) :
    smp (iblk m c 0 t) p = fun tt cc => m ((c : Thread nD τ).loc main_arg0) (ix3 n tt cc) := by
  obtain ⟨e0, e1, e2, -⟩ := idx_facts t
  funext tt cc
  show V m c main_arg0 (((cfg0.win 0).blk t).view.emb (ix3 p tt cc)) = _
  rw [V_main_arg0]
  refine congrArg (m ((c : Thread nD τ).loc main_arg0)) (funext fun a => Fin.ext ?_)
  match a with
  | ⟨0, _⟩ => show win0_0.index t (0 : Fin 3) * 2 + 1 * p.val = n.val; rw [e0]; omega
  | ⟨1, _⟩ => show win0_0.index t (1 : Fin 3) * 2048 + 1 * tt.val = tt.val; rw [e1]; omega
  | ⟨2, _⟩ => show win0_0.index t (2 : Fin 3) * 256 + 1 * cc.val = cc.val; rw [e2]; omega

/-- The weights read back from the loaded transposed block are the weights. -/
theorem blk_wt (c : Dev nD) (t : Fin cfg0.N) :
    wt (iblk m c 1 t) = fun k a => m ((c : Thread nD τ).loc main_arg1) (ix2 k a) := by
  obtain ⟨-, -, -, e0, e1, -⟩ := idx_facts t
  funext k a
  show V m c main_v0 (((cfg0.win 1).blk t).view.emb (ix2 a k)) = _
  refine Eq.trans (congrArg (V m c main_v0) (funext fun ax => Fin.ext ?_)) (V_wt m c a k)
  match ax with
  | ⟨0, _⟩ => show win0_1.index t (0 : Fin 2) * 256 + 1 * a.val = a.val; rw [e0]; omega
  | ⟨1, _⟩ => show win0_1.index t (1 : Fin 2) * 64 + 1 * k.val = k.val; rw [e1]; omega

/-- The biases read from the loaded one-row block are the biases. -/
theorem blk_bias (c : Dev nD) (t : Fin cfg0.N) :
    bias (iblk m c 2 t) = fun k => m ((c : Thread nD τ).loc main_arg2) (ix1 k) := by
  obtain ⟨-, -, -, -, -, e0, e1, -⟩ := idx_facts t
  funext k
  show V m c main_v1 (((cfg0.win 2).blk t).view.emb (ix2 (0 : Fin 1) k)) = _
  refine Eq.trans (congrArg (V m c main_v1) (funext fun ax => Fin.ext ?_)) (V_bias m c (0 : Fin 1) k)
  match ax with
  | ⟨0, _⟩ => show win0_2.index t (0 : Fin 2) * 1 + 1 * 0 = 0; rw [e0]
  | ⟨1, _⟩ => show win0_2.index t (1 : Fin 2) * 64 + 1 * k.val = k.val; rw [e1]; omega

/-- The centres read from the loaded block are the centres. -/
theorem blk_cen (c : Dev nD) (t : Fin cfg0.N) :
    cen (iblk m c 3 t) = fun k a => m ((c : Thread nD τ).loc main_arg3) (ix2 k a) := by
  obtain ⟨-, -, -, -, -, -, -, e0, e1, -⟩ := idx_facts t
  funext k a
  show V m c main_arg3 (((cfg0.win 3).blk t).view.emb (ix2 k a)) = _
  rw [V_main_arg3]
  refine congrArg (m ((c : Thread nD τ).loc main_arg3)) (funext fun ax => Fin.ext ?_)
  match ax with
  | ⟨0, _⟩ => show win0_3.index t (0 : Fin 2) * 64 + 1 * k.val = k.val; rw [e0]; omega
  | ⟨1, _⟩ => show win0_3.index t (1 : Fin 2) * 256 + 1 * a.val = a.val; rw [e1]; omega

/-! ## What a point writes back, and the array after the run -/

/-- WHAT POINT t WRITES BACK is block t of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S2x2048x256) hz3, View.ld_unit_zero (S := S256x64) hz2,
    View.ld_unit_zero (S := S1x64) hz2, View.ld_unit_zero (S := S64x256) hz2]
  obtain ⟨-, -, -, -, -, -, -, -, -, e0, e1, e2⟩ := idx_facts t
  funext j
  obtain ⟨p, k, a, rfl⟩ : ∃ (p : Fin 2) (k : Fin 64) (a : Fin 256), j = ix3 p k a := ⟨j 0, j 1, j 2, eq_ix3 j⟩
  have ht : t.val < 32 := by have := t.isLt; have hN : cfg0.N = 32 := N_0; omega
  refine (stored_at (iblk m c 0 t) (iblk m c 1 t) (iblk m c 2 t) (iblk m c 3 t) p k a).trans ?_
  show _ = Cert.Vlad.out _ _ _ _ _ _
  refine Cert.Vlad.out_congr
    ((blk_sample m c t p (⟨t.val * 2 + p.val, by have := p.isLt; omega⟩ : Fin 64) rfl).trans ?_)
    (blk_wt m c t) (blk_bias m c t) (blk_cen m c t) ?_ ?_
  · refine funext fun tt => funext fun cc => congrArg (m ((c : Thread nD τ).loc main_arg0)) (funext fun ax => Fin.ext ?_)
    match ax with
    | ⟨0, _⟩ => show t.val * 2 + p.val = win0_4.index t (0 : Fin 3) * 2 + 1 * p.val; rw [e0]; omega
    | ⟨1, _⟩ => rfl
    | ⟨2, _⟩ => rfl
  · exact Fin.ext (by show k.val = win0_4.index t (1 : Fin 3) * 64 + 1 * k.val; rw [e1]; omega)
  · exact Fin.ext (by show a.val = win0_4.index t (2 : Fin 3) * 256 + 1 * a.val; rw [e2]; omega)

/-- An index of the result array is in point t's block iff each coordinate is in the block's range on its axis. -/
theorem mem_blk (t : Fin cfg0.N) (i : S64x64x256.Idx) :
    i ∈ ((cfg0.win 4).blk t).view.set ↔ ∀ a : Fin 3, win0_4.index t a * S2x64x256.size a ≤ (i a).val
      ∧ (i a).val < win0_4.index t a * S2x64x256.size a + S2x64x256.size a := by
  show i ∈ ((View.whole main_v2).slice (win0_4.rect t)).set ↔ _
  rw [View.set_slice_whole, Rect.mem_set_unit]
  exact Iff.rfl

/-- Row n of the result lies in the block of point n / 2. -/
theorem cover (i : S64x64x256.Idx) :
    ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 256 := (i 2).isLt
  have hN : cfg0.N = 32 := N_0
  let t : Fin cfg0.N := ⟨(i 0).val / 2, by rw [hN]; omega⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 2 ≤ (i 0).val ∧ (i 0).val < win0_4.index t (0 : Fin 3) * 2 + 2
    rw [e0]; show (i 0).val / 2 * 2 ≤ (i 0).val ∧ (i 0).val < (i 0).val / 2 * 2 + 2; omega
  | ⟨1, _⟩ =>
    show win0_4.index t (1 : Fin 3) * 64 ≤ (i 1).val ∧ (i 1).val < win0_4.index t (1 : Fin 3) * 64 + 64
    rw [e1]; omega
  | ⟨2, _⟩ =>
    show win0_4.index t (2 : Fin 3) * 256 ≤ (i 2).val ∧ (i 2).val < win0_4.index t (2 : Fin 3) * 256 + 256
    rw [e2]; omega

/-- THE RESULT ARRAY after the run is `G`. -/
theorem final (c : Dev nD) : (dats m 0 c).arrAt 4 cfg0.N = G m c :=
  (dats m 0 c).arrAt_eq_of_cover 4 (G m c) (fun t _ => flushed_eq m c t) (cover)

/-! ## The reshape after the call, and the run -/

/-- The flattened result: entry (n, j) of the reshape of `G` is `Vlad.result`'s. -/
theorem flat_eq (c : Dev nD) :
    shapeCast S64x16384 (G m c) shapeCasts_S64x64x256_S64x16384
      = Cert.Vlad.result (m ((c : Thread nD τ).loc main_arg0)) (m ((c : Thread nD τ).loc main_arg1))
          (m ((c : Thread nD τ).loc main_arg2)) (m ((c : Thread nD τ).loc main_arg3)) := by
  funext i
  have h0 : (i 0).val < 64 := (i 0).isLt
  have h1 : (i 1).val < 16384 := (i 1).isLt
  unfold Cert.Vlad.result
  refine shapeCast_apply (G m c) shapeCasts_S64x64x256_S64x16384 i _ ?_
  rw [Shape.rowMajor_val_three, Shape.rowMajor_val_two]
  show ((i 0).val * 64 + (i 1).val / 256) * 256 + (i 1).val % 256 = (i 0).val * 16384 + (i 1).val
  omega

/-- What the reshape after the call leaves in the program's result, from the array the call left. -/
theorem tail_eq (c : Dev nD) :
    Pipeline.afterTail₀ cfgs (dats m) 0 (V0 m) [hostOps1] c main_v3
      = shapeCast S64x16384 ((dats m 0 c).arrAt 4 cfg0.N) shapeCasts_S64x64x256_S64x16384 := by
  unfold Pipeline.afterTail₀
  show StableHlo.after hostOps1 _ (Proc.devRef .tc main_v3) = _
  after_results
  exact congrArg (fun x => shapeCast S64x16384 x shapeCasts_S64x64x256_S64x16384)
    (Pipeline.withArrays_arr spec0 launch0.win.arr_inj c _ _ 4)

/-- THE RUN of the idealized kernel program: its result is `Vlad.result` of the arguments, which end unchanged. -/
theorem run : θ_run defs (onTc (τ := τ) (main (F := Ideal))) ⟨m, fun _ => 0, ρ⟩ fun r => ∀ c : Dev nD,
      r.2.mem ((c.tc : Thread nD τ).loc main_v3)
        = Cert.Vlad.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans
        ((tail_eq m c).trans ((congrArg (fun x => shapeCast S64x16384 x shapeCasts_S64x64x256_S64x16384) (final m c)).trans
          (flat_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KerArray

end
-- ==== Proof.lean ====
/-
  A fused NetVLAD layer against its jnp reference, equal as extended reals.

  Both programs take a batch of 64 samples (2048 rows of 256 channels each), 64 cluster weight rows, 64 biases and 64
  cluster centres, and return a [64, 16384] array.  For each sample: every row is scaled to unit Euclidean length
  (its norm clamped below by ε), the rows are scored against the clusters (a matrix product plus the bias), the scores
  go through a softmax over the clusters, the soft-assigned residuals to the cluster centres are summed over the
  rows, each cluster's residual row is scaled to unit length, and the whole 64·256 vector is scaled to unit length.
  The kernel works on two samples per grid point and multiplies by the reciprocal of each clamped norm where the
  reference divides by it; at the extended reals a clamped norm is never zero, and for a nonzero divisor
  x · (1 / d) = x / d for EVERY extended real x, so the two agree with no finiteness argument (the precondition is
  never opened).  The kernel's last norm sums the squares over channels and then over clusters, the reference's over
  the 16384 flat positions: one finite sum, regrouped.  The kernel's matrix products accumulate into zero and are
  the reference's contractions; its row sums and row maximum are the reference's reduces.
  Both sides are shown equal to ONE function of the argument arrays, `Vlad.result` (Proof/Spec.lean): the reference
  stage by stage (Proof/RefValue.lean), the kernel's stored block entry by entry (Proof/KerValue.lean) and then from
  the blocks of the 32 grid points to the whole array and through the reshape after the call (Proof/KerArray.lean).
  The three frames are the generated ones (the reference's is its generated run with the result dropped); the
  idealization rewrote nothing, so `preserves` is trivial.
-/
import proofs.«137891_j21844203668356_2_alg».proof.Defs
import proofs.«137891_j21844203668356_2_alg».proof.Proof.Gen.Kernel
import proofs.«137891_j21844203668356_2_alg».proof.Proof.Gen.Kernel.Skeleton
import proofs.«137891_j21844203668356_2_alg».proof.Proof.Gen.Kernel.Launch
import proofs.«137891_j21844203668356_2_alg».proof.Proof.Gen.Kernel.Points
import proofs.«137891_j21844203668356_2_alg».proof.Proof.Gen.Kernel.Frame
import proofs.«137891_j21844203668356_2_alg».proof.Proof.Gen.KernelIdeal
import proofs.«137891_j21844203668356_2_alg».proof.Proof.Gen.KernelIdeal.Skeleton
import proofs.«137891_j21844203668356_2_alg».proof.Proof.Gen.KernelIdeal.Launch
import proofs.«137891_j21844203668356_2_alg».proof.Proof.Gen.KernelIdeal.Points
import proofs.«137891_j21844203668356_2_alg».proof.Proof.Gen.KernelIdeal.Frame
import proofs.«137891_j21844203668356_2_alg».proof.Proof.Gen.ReferenceIdeal
import proofs.«137891_j21844203668356_2_alg».proof.Proof.Gen.Pre_finite_inputs
import proofs.«137891_j21844203668356_2_alg».proof.Proof.Gen.ReferenceIdeal.Run
import proofs.«137891_j21844203668356_2_alg».proof.Proof.Gen.ReferenceIdeal.Read
import Idealize.ShloMosaic.Adequacy
import Idealize.ShloMosaic.Init
import proofs.«137891_j21844203668356_2_alg».proof.Proof.RefValue
import proofs.«137891_j21844203668356_2_alg».proof.Proof.KerArray

noncomputable section

namespace Cert.Proof

open Idealize.ShloMosaic Idealize.SL.Sem

/-- The word-level kernel program terminates without fault and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at `Vlad.result` of those arguments. -/
theorem algebraic : Cert.algebraic_KernelIdeal_ReferenceIdeal := by
  intro m ρ m' ρ' _ hagree
  refine ⟨_, Cert.KernelIdeal.KerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
